-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x2 : Shape := ⟨2, ![500000, 2]⟩
abbrev S2x32000000 : Shape := ⟨2, ![2, 32000000]⟩
abbrev S32000000x1 : Shape := ⟨2, ![32000000, 1]⟩
abbrev S1x1 : Shape := ⟨2, ![1, 1]⟩
abbrev S500000 : Shape := ⟨1, ![500000]⟩
abbrev S_ : Shape := ⟨0, ![]⟩

class Facts : Prop where
  bcast_S_S500000x2 : S_.BroadcastsInDim S500000x2 (![] : Fin 0 → Fin S500000x2.rank)
  reducesTo_S500000x2_S_d0_1 : S500000x2.ReducesTo [0, 1] S_
  h_S_ : 0 < S_.numel
  bcast_S_S32000000x1 : S_.BroadcastsInDim S32000000x1 (![] : Fin 0 → Fin S32000000x1.rank)
  reducesTo_S32000000x1_S_d0_1 : S32000000x1.ReducesTo [0, 1] S_
  bcast_S_S1x1 : S_.BroadcastsInDim S1x1 (![] : Fin 0 → Fin S1x1.rank)
  reducesTo_S1x1_S_d0_1 : S1x1.ReducesTo [0, 1] S_

variable [Facts]

def fn {F : FTy → Type} [FloatOps F] (main_arg0 : FVec F S500000x2 .f32) (main_arg1 : IVec S2x32000000 32) (main_arg2 : FVec F S32000000x1 .f32) (main_arg3 : FVec F S1x1 .f32) (main_arg4 : IVec S500000 32) : IVec S_ 1 :=
  let main_v0 : FVec F S500000x2 .f32 := Host.absf main_arg0
  let main_cst : FVec F S_ .f32 := constant S_ .f32 0x7F800000#32
  let main_v1 : FVec F S500000x2 .f32 := broadcastInDim S500000x2 ![] bcast_S_S500000x2 main_cst
  let main_v2 : IVec S500000x2 1 := cmpf .olt main_v0 main_v1
  let main_c : IVec S_ 1 := constantI S_ 1 1#1
  let main_v3 : IVec S_ 1 := (fun x v => Host.reduce IntOp.andi x v reducesTo_S500000x2_S_d0_1 h_S_) main_v2 main_c
  let main_v4 : FVec F S32000000x1 .f32 := Host.absf main_arg2
  let main_cst_0 : FVec F S_ .f32 := constant S_ .f32 0x7F800000#32
  let main_v5 : FVec F S32000000x1 .f32 := broadcastInDim S32000000x1 ![] bcast_S_S32000000x1 main_cst_0
  let main_v6 : IVec S32000000x1 1 := cmpf .olt main_v4 main_v5
  let main_c_1 : IVec S_ 1 := constantI S_ 1 1#1
  let main_v7 : IVec S_ 1 := (fun x v => Host.reduce IntOp.andi x v reducesTo_S32000000x1_S_d0_1 h_S_) main_v6 main_c_1
  let main_v8 : IVec S_ 1 := andi main_v3 main_v7
  let main_v9 : FVec F S1x1 .f32 := Host.absf main_arg3
  let main_cst_2 : FVec F S_ .f32 := constant S_ .f32 0x7F800000#32
  let main_v10 : FVec F S1x1 .f32 := broadcastInDim S1x1 ![] bcast_S_S1x1 main_cst_2
  let main_v11 : IVec S1x1 1 := cmpf .olt main_v9 main_v10
  let main_c_3 : IVec S_ 1 := constantI S_ 1 1#1
  let main_v12 : IVec S_ 1 := (fun x v => Host.reduce IntOp.andi x v reducesTo_S1x1_S_d0_1 h_S_) main_v11 main_c_3
  let main_v13 : IVec S_ 1 := andi main_v8 main_v12
  main_v13
-- ==== Kernel.lean ====
abbrev S500000x2 : Shape := ⟨2, ![500000, 2]⟩
abbrev S2x32000000 : Shape := ⟨2, ![2, 32000000]⟩
abbrev S32000000x1 : Shape := ⟨2, ![32000000, 1]⟩
abbrev S1x1 : Shape := ⟨2, ![1, 1]⟩
abbrev S500000 : Shape := ⟨1, ![500000]⟩
abbrev S1x32000000 : Shape := ⟨2, ![1, 32000000]⟩
abbrev S32000000 : Shape := ⟨1, ![32000000]⟩
abbrev S_ : Shape := ⟨0, ![]⟩
abbrev S500000x1 : Shape := ⟨2, ![500000, 1]⟩
abbrev S2000x1 : Shape := ⟨2, ![2000, 1]⟩
abbrev S2000x2 : Shape := ⟨2, ![2000, 2]⟩

abbrev nBuf : Space → Nat
  | .hbm => 12
  | .vmem => 6
  | .smem => 0
  | _ => 0

abbrev bufTy : (tb : Table) → Fin (tcTables nBuf tb) → BufTy
  | .hbm, ⟨0, _⟩ => ⟨S500000x2, .f32⟩
  | .hbm, ⟨1, _⟩ => ⟨S2x32000000, .i32⟩
  | .hbm, ⟨2, _⟩ => ⟨S32000000x1, .f32⟩
  | .hbm, ⟨3, _⟩ => ⟨S1x1, .f32⟩
  | .hbm, ⟨4, _⟩ => ⟨S500000, .i32⟩
  | .hbm, ⟨5, _⟩ => ⟨S1x32000000, .i32⟩
  | .hbm, ⟨6, _⟩ => ⟨S32000000, .i32⟩
  | .hbm, ⟨7, _⟩ => ⟨S_, .f32⟩
  | .hbm, ⟨8, _⟩ => ⟨S500000x1, .f32⟩
  | .hbm, ⟨9, _⟩ => ⟨S32000000x1, .i32⟩
  | .hbm, ⟨10, _⟩ => ⟨S500000x1, .f32⟩
  | .hbm, ⟨11, _⟩ => ⟨S500000x2, .f32⟩
  | .local _ .vmem, ⟨0, _⟩ => ⟨S2000x1, .f32⟩
  | .local _ .vmem, ⟨1, _⟩ => ⟨S2000x1, .f32⟩
  | .local _ .vmem, ⟨2, _⟩ => ⟨S2000x2, .f32⟩
  | .local _ .vmem, ⟨3, _⟩ => ⟨S2000x2, .f32⟩
  | .local _ .vmem, ⟨4, _⟩ => ⟨S2000x2, .f32⟩
  | .local _ .vmem, ⟨5, _⟩ => ⟨S2000x2, .f32⟩
  | _, _ => ⟨S500000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x32000000_S1x32000000_0_0 : S2x32000000.Slices ![0, 0] S1x32000000
  shapeCasts_S1x32000000_S32000000 : S1x32000000.ShapeCasts S32000000
  bcast_S_S500000x1 : S_.BroadcastsInDim S500000x1 (![] : Fin 0 → Fin S500000x1.rank)
  bcast_S32000000_S32000000x1_0 : S32000000.BroadcastsInDim S32000000x1 (![0] : Fin 1 → Fin S32000000x1.rank)
  inb_S2000x2_S2000x1_0_1 : ∀ a, (![0, 1] : Fin 2 → Nat) a + S2000x1.size a ≤ S2000x2.size a
  h_S2000x1 : 0 < S2000x1.numel
  inb_S2000x1_S2000x1_0_0 : ∀ a, (![0, 0] : Fin 2 → Nat) a + S2000x1.size a ≤ S2000x1.size a
  shapeCasts_S2000x1_S2000x1 : S2000x1.ShapeCasts S2000x1
  concatenates_S2000x1_S2000x1_S2000x2_d1 : Shape.Concatenates [S2000x1, S2000x1] S2000x2 1
  inb_S2000x2_S2000x2_0_0 : ∀ a, (![0, 0] : Fin 2 → Nat) a + S2000x2.size a ≤ S2000x2.size a
  h_S2000x2 : 0 < S2000x2.numel
  scatter_S500000x1_S32000000x1_S32000000x1_1_0_0_1_wf : ScatterDims.WF S500000x1 S32000000x1 S32000000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S500000x1.size a
  hwx0_0 : ∀ i : grid0.Coords, EltTy.bits .f32 = 32 ∨ (Rect.block (s := S500000x1) S2000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x2.size a ≤ S500000x2.size a
  hwx0_1 : ∀ i : grid0.Coords, EltTy.bits .f32 = 32 ∨ (Rect.block (s := S500000x2) S2000x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x2.size a ≤ S500000x2.size a
  hwx0_2 : ∀ i : grid0.Coords, EltTy.bits .f32 = 32 ∨ (Rect.block (s := S500000x2) S2000x2.size (cc0_transform_2 i) (hinb0_2 i)).WholeWords (EltTy.packing .f32)

variable [Facts₀]

def scatter_S500000x1_S32000000x1_S32000000x1_1_0_0_1 : ScatterDims S500000x1 S32000000x1 S32000000x1 where
  updateWindowDims := [1]
  insertedWindowDims := [0]
  scatterDimsToOperandDims := [0]
  indexVectorDim := 1
  wf := scatter_S500000x1_S32000000x1_S32000000x1_1_0_0_1_wf

abbrev win0_0 : Pipeline.Window sig grid0 :=
  Pipeline.Window.ofSpec (Memref.whole main_v4) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2000x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S500000x2 : Shape := ⟨2, ![500000, 2]⟩
abbrev S2x32000000 : Shape := ⟨2, ![2, 32000000]⟩
abbrev S32000000x1 : Shape := ⟨2, ![32000000, 1]⟩
abbrev S1x1 : Shape := ⟨2, ![1, 1]⟩
abbrev S500000 : Shape := ⟨1, ![500000]⟩
abbrev S500000x1 : Shape := ⟨2, ![500000, 1]⟩
abbrev S1x32000000 : Shape := ⟨2, ![1, 32000000]⟩
abbrev S32000000 : Shape := ⟨1, ![32000000]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S500000x2, .f32⟩
  | .hbm, ⟨1, _⟩ => ⟨S2x32000000, .i32⟩
  | .hbm, ⟨2, _⟩ => ⟨S32000000x1, .f32⟩
  | .hbm, ⟨3, _⟩ => ⟨S1x1, .f32⟩
  | .hbm, ⟨4, _⟩ => ⟨S500000, .i32⟩
  | .hbm, ⟨5, _⟩ => ⟨S500000x1, .f32⟩
  | .hbm, ⟨6, _⟩ => ⟨S1x32000000, .i32⟩
  | .hbm, ⟨7, _⟩ => ⟨S32000000, .i32⟩
  | .hbm, ⟨8, _⟩ => ⟨S_, .f32⟩
  | .hbm, ⟨9, _⟩ => ⟨S500000x1, .f32⟩
  | .hbm, ⟨10, _⟩ => ⟨S32000000x1, .i32⟩
  | .hbm, ⟨11, _⟩ => ⟨S500000x1, .f32⟩
  | .hbm, ⟨12, _⟩ => ⟨S500000x2, .f32⟩
  | _, _ => ⟨S500000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  slices_S500000x2_S500000x1_0_1 : S500000x2.Slices ![0, 1] S500000x1
  slices_S2x32000000_S1x32000000_0_0 : S2x32000000.Slices ![0, 0] S1x32000000
  shapeCasts_S1x32000000_S32000000 : S1x32000000.ShapeCasts S32000000
  bcast_S_S500000x1 : S_.BroadcastsInDim S500000x1 (![] : Fin 0 → Fin S500000x1.rank)
  bcast_S32000000_S32000000x1_0 : S32000000.BroadcastsInDim S32000000x1 (![0] : Fin 1 → Fin S32000000x1.rank)
  concatenates_S500000x1_S500000x1_S500000x2_d1 : Shape.Concatenates [S500000x1, S500000x1] S500000x2 1
  scatter_S500000x1_S32000000x1_S32000000x1_1_0_0_1_wf : ScatterDims.WF S500000x1 S32000000x1 S32000000x1 [1] [0] [0] 1

variable [Facts₀]

def scatter_S500000x1_S32000000x1_S32000000x1_1_0_0_1 : ScatterDims S500000x1 S32000000x1 S32000000x1 where
  updateWindowDims := [1]
  insertedWindowDims := [0]
  scatterDimsToOperandDims := [0]
  indexVectorDim := 1
  wf := scatter_S500000x1_S32000000x1_S32000000x1_1_0_0_1_wf

class Facts : Prop extends Facts₀ where

variable [Facts]
-- ==== Proof.Joined.lean ====
/-
  The result both programs compute, as one function of two arrays.

  Every vertex carries two attributes. The result keeps the second attribute of each vertex and replaces the first by
  the vertex's segment sum (the sum of the edge attributes whose destination is that vertex). Written index by index:
  at `(v, 0)` the result is the segment sum of `v`, at `(v, 1)` it is the second attribute of `v`. That is `joined`,
  stated over any element type: nothing below depends on what the entries are, only on where they sit.

  A concatenation along the attribute axis of a one-column array with the second column sliced out of a two-column
  array is this function (`concat_slice_eq_joined`): the concatenation reads its first piece where the attribute
  coordinate is `0` and its second piece, shifted by one, where it is `1`; the slice reads the two-column array one
  column to the right.
-/
import Idealize.ShloMosaic.Lib.Pipeline.Value

noncomputable section

namespace Cert.SegmentJoin

open Idealize.ShloMosaic

/-- Two attributes for each of the 500000 vertices. -/
abbrev Pairs : Shape := ⟨2, ![500000, 2]⟩

/-- One value for each vertex, kept as a column. -/
abbrev Column : Shape := ⟨2, ![500000, 1]⟩

/-- The vertex of an index of the two-attribute array, as an index of a one-column array. -/
abbrev vertexOf (i : Pairs.Idx) : Column.Idx := fun a => match a with
  | ⟨0, _⟩ => ⟨(i 0).val, (i 0).isLt⟩
  | ⟨1, _⟩ => ⟨0, Nat.one_pos⟩

/-- The second attribute of the vertex of an index. -/
abbrev secondOf (i : Pairs.Idx) : Pairs.Idx := fun a => match a with
  | ⟨0, _⟩ => ⟨(i 0).val, (i 0).isLt⟩
  | ⟨1, _⟩ => ⟨1, by show 1 < 2; omega⟩

/-- The per-vertex values `C` in the first attribute's place, the second attribute of `A` kept. -/
def joined {α : Type} (C : Column.Idx → α) (A : Pairs.Idx → α) : Pairs.Idx → α :=
  fun i => if (i 1).val = 0 then C (vertexOf i) else A (secondOf i)

theorem joined_apply {α : Type} (C : Column.Idx → α) (A : Pairs.Idx → α) (i : Pairs.Idx) :
    joined C A i = if (i 1).val = 0 then C (vertexOf i) else A (secondOf i) := rfl

/-- The one-column array `C` concatenated, along the attribute axis, with the second column sliced out of `A`
    is `joined C A`. -/
theorem concat_slice_eq_joined {α : Type} (C : Column.Idx → α) (A : Pairs.Idx → α)
    (hs : Pairs.Slices ![0, 1] Column) (hc : Shape.Concatenates [Column, Column] Pairs 1) :
    concatenate Pairs 1 [⟨Column, C⟩, ⟨Column, extractStridedSlice Column ![0, 1] A hs⟩] hc = joined C A := by
  funext i
  have h1 : (i 1).val < 2 := (i 1).isLt
  rw [joined_apply]
  split
  · next h0 =>
    -- attribute coordinate 0: the first piece, at the same vertex
    exact concatenate_pair_apply_left (1 : Fin 2) C _ hc i rfl (vertexOf i) (fun b => match b with
      | ⟨0, _⟩ => rfl
      | ⟨1, _⟩ => by show 0 = (i 1).val; omega)
  · next h0 =>
    -- attribute coordinate 1: the second piece at column 0, which the slice reads from column 1 of `A`
    rw [concatenate_pair_apply_right (s₂ := Column) (1 : Fin 2) C (extractStridedSlice Column ![0, 1] A hs) hc i rfl rfl
      (vertexOf i) (fun b hb => match b with
      | ⟨0, _⟩ => rfl
      | ⟨1, _⟩ => absurd rfl hb) (by show 0 + 1 = (i 1).val; omega)]
    exact extractStridedSlice_apply ![0, 1] A hs (vertexOf i) (secondOf i) (fun a => match a with
      | ⟨0, _⟩ => by show (i 0).val = 0 + (i 0).val; omega
      | ⟨1, _⟩ => by show 1 = 1 + 0; rfl)

end Cert.SegmentJoin

end
-- ==== Proof.KernelBlock.lean ====
/-
  What the kernel body leaves in one output block.

  At a grid point the body holds a block of 2000 vertices: their segment sums as a 2000 × 1 block `X0` and their two
  attributes as a 2000 × 2 block `X1`. It loads the second column of `X1`, loads `X0` whole, concatenates the two
  columns and stores the 2000 × 2 result. So the stored block, read at row `v` and column `k`, is `X0` at row `v`
  when `k = 0` and `X1` at row `v`, column `1`, when `k = 1` (`block_at`): the same rule as for the whole array, one
  block at a time.
-/
import proofs.«146690_j91096256348956_2_alg».proof.Proof.Gen.KernelIdeal.Value

noncomputable section

namespace Cert.KernelIdeal.BlockValue

open Cert.KernelIdeal Cert.KernelIdeal.Gen Cert.KernelIdeal.Value Idealize.ShloMosaic

variable {F : FTy → Type} [FloatOps F]

/-- The offsets of a load or store of a whole block are all zero. -/
theorem zero_offsets : (![0, 0] : Fin 2 → Nat) = fun _ => 0 := funext fun a => by fin_cases a <;> rfl

/-- Row `y 0` of a block, second column. -/
abbrev secondInBlock (y : S2000x2.Idx) : S2000x2.Idx := fun a => match a with
  | ⟨0, _⟩ => ⟨(y 0).val, (y 0).isLt⟩
  | ⟨1, _⟩ => ⟨1, by show 1 < 2; omega⟩

/-- The block the body stores, at row `y 0` and column `y 1`: the segment-sum block at that row in column `0`, the
    attribute block's second column at that row in column `1`. -/
theorem block_at (X0 : Vec F S2000x1 .f32) (X1 : Vec F S2000x2 .f32) (y : S2000x2.Idx) :
    out0_2 X0 X1 y = if (y 1).val = 0 then X0 (ix2_0 y) else X1 (secondInBlock y) := by
  have hy1 : (y 1).val < 2 := (y 1).isLt
  unfold out0_2
  rw [canon2_eq]
  show Cat2_0 (View.ld X0 r0_1) (View.ld X1 r0_0) (csel2_0 y) (ix2_0 y) = _
  split
  · next h0 =>
    -- column 0 is the first operand of the concatenation: the whole segment-sum block
    have e : csel2_0 y = (0 : Fin 2) := Fin.ext h0
    rw [e]
    show shapeCast S2000x1 (View.ld X0 r0_1) shapeCasts_S2000x1_S2000x1 (ix2_0 y) = _
    have hl : (View.ld X0 r0_1 : S2000x1.Idx → Elt F .f32) = X0 := View.ld_unit_zero (S := S2000x1) zero_offsets _ X0
    exact (congrFun (shapeCast_self (s := S2000x1) (View.ld X0 r0_1) shapeCasts_S2000x1_S2000x1) (ix2_0 y)).trans
      (congrFun hl (ix2_0 y))
  · next h0 =>
    -- column 1 is the second operand: the attribute block loaded one column to the right
    have e : csel2_0 y = (1 : Fin 2) := Fin.ext (by show (y 1).val = 1; omega)
    rw [e]
    show X1 (r0_0.idx (ix2_0 y)) = X1 (secondInBlock y)
    refine congrArg X1 (funext fun a => Fin.ext ?_)
    match a with
    | ⟨0, _⟩ => show 0 + 1 * (y 0).val = (y 0).val; omega
    | ⟨1, _⟩ => show 1 + 1 * 0 = 1; rfl

end Cert.KernelIdeal.BlockValue

end
-- ==== Proof.KernelArray.lean ====
/-
  The kernel's result array as one function of the argument arrays.

  The grid has 250 points; point `t` works on vertices `2000 t … 2000 t + 1999`: every window's block index is
  `(t, 0)` (`block_indices`, decided over the grid). So what point `t` writes back — the block of `KernelBlock` —
  is block `t` of `joined` of the two arrays the region finds (`written_back`): a row of the block is the same
  vertex in all three windows, and column `k` of the output block is column `k` of the array.
  Vertex `v` lies in the block of point `v / 2000`, so the 250 blocks cover the array (`covered`) and the array ends
  as `joined` of the segment sums and the vertex attributes (`result`).
  The segment sums the region finds are what the host operations before it computed: the scatter-add of the edge
  attributes into zeros at the destinations in row `0` of the edge list (`segment_sums`, `sums_found`).
-/
import proofs.«146690_j91096256348956_2_alg».proof.Proof.Gen.KernelIdeal.Value
import proofs.«146690_j91096256348956_2_alg».proof.Proof.Joined
import proofs.«146690_j91096256348956_2_alg».proof.Proof.KernelBlock
import Idealize.ShloMosaic.Lib.StableHlo.Run

noncomputable section

namespace Cert.KernelIdeal.ArrayValue

open Cert.KernelIdeal Cert.KernelIdeal.Gen Cert.KernelIdeal.Value Cert.KernelIdeal.BlockValue Cert.SegmentJoin
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- At point `t` every window is on block `(t, 0)` of its array. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `joined` of the segment sums and the vertex attributes as the
    region finds them. -/
theorem written_back (c : Dev nD) (t : Fin cfg0.N) :
    (dats m 0 c).flushed 2 t
      = ((cfg0.win 2).blk t).view.read (Elt F) (joined (α := Elt F .f32) (V m c main_v4) (V m c main_arg0)) := by
  rw [flushed2]
  obtain ⟨a0, a1, b0, b1, c0, c1⟩ := block_indices t
  funext j
  show out0_2 (iblk m c 0 t) (iblk m c 1 t) j
    = joined (α := Elt F .f32) (V m c main_v4) (V m c main_arg0) (((cfg0.win 2).blk t).view.emb j)
  rw [block_at, joined_apply]
  have hj1 : (j 1).val < 2 := (j 1).isLt
  have hcol : ((((cfg0.win 2).blk t).view.emb j) 1).val = (j 1).val := by
    show win0_2.index t (1 : Fin 2) * 2 + 1 * (j 1).val = (j 1).val
    omega
  by_cases h : (j 1).val = 0
  · -- the segment-sum column: the same vertex of the one-column array
    rw [if_pos h, if_pos (hcol.trans h)]
    show V m c main_v4 (((cfg0.win 0).blk t).view.emb (ix2_0 j)) = V m c main_v4 (vertexOf (((cfg0.win 2).blk t).view.emb j))
    refine congrArg (V m c main_v4) (funext fun a => Fin.ext ?_)
    match a with
    | ⟨0, _⟩ =>
      show win0_0.index t (0 : Fin 2) * 2000 + 1 * (j 0).val = win0_2.index t (0 : Fin 2) * 2000 + 1 * (j 0).val
      omega
    | ⟨1, _⟩ =>
      show win0_0.index t (1 : Fin 2) * 1 + 1 * 0 = 0
      omega
  · -- the kept column: the same vertex's second attribute
    rw [if_neg h, if_neg (fun e => h (hcol.symm.trans e))]
    show V m c main_arg0 (((cfg0.win 1).blk t).view.emb (secondInBlock j)) = V m c main_arg0 (secondOf (((cfg0.win 2).blk t).view.emb j))
    refine congrArg (V m c main_arg0) (funext fun a => Fin.ext ?_)
    match a with
    | ⟨0, _⟩ =>
      show win0_1.index t (0 : Fin 2) * 2000 + 1 * (j 0).val = win0_2.index t (0 : Fin 2) * 2000 + 1 * (j 0).val
      omega
    | ⟨1, _⟩ =>
      show win0_1.index t (1 : Fin 2) * 2 + 1 * 1 = 1
      omega

/-- An index is in point `t`'s output block iff, on each axis, it is in the block's range. -/
theorem mem_block (t : Fin cfg0.N) (i : S500000x2.Idx) :
    i ∈ ((cfg0.win 2).blk t).view.set
      ↔ ∀ a : Fin 2, win0_2.index t a * S2000x2.size a ≤ (i a).val ∧ (i a).val < win0_2.index t a * S2000x2.size a + S2000x2.size a := by
  show i ∈ ((View.whole main_v5).slice (win0_2.rect t)).set ↔ _
  rw [View.set_slice_whole, Rect.mem_set_unit]
  exact Iff.rfl

/-- Every index is in the block of the point its vertex falls in, `v / 2000`. -/
theorem covered (i : S500000x2.Idx) :
    ∃ t : Fin cfg0.N, (cfg0.win 2).flush t = true ∧ i ∈ ((cfg0.win 2).blk t).view.set := by
  have hi0 : (i 0).val < 500000 := (i 0).isLt
  have hi1 : (i 1).val < 2 := (i 1).isLt
  have hN : (i 0).val / 2000 < cfg0.N := by
    show (i 0).val / 2000 < grid0.N
    rw [N_0]; omega
  obtain ⟨-, -, -, -, c0, c1⟩ := block_indices ⟨(i 0).val / 2000, hN⟩
  have c0' : win0_2.index ⟨(i 0).val / 2000, hN⟩ (0 : Fin 2) = (i 0).val / 2000 := c0
  refine ⟨⟨(i 0).val / 2000, hN⟩, flush0_2 _, ?_⟩
  rw [mem_block]
  intro a
  match a with
  | ⟨0, _⟩ =>
    show win0_2.index ⟨(i 0).val / 2000, hN⟩ (0 : Fin 2) * 2000 ≤ (i 0).val
      ∧ (i 0).val < win0_2.index ⟨(i 0).val / 2000, hN⟩ (0 : Fin 2) * 2000 + 2000
    omega
  | ⟨1, _⟩ =>
    show win0_2.index ⟨(i 0).val / 2000, hN⟩ (1 : Fin 2) * 2 ≤ (i 1).val
      ∧ (i 1).val < win0_2.index ⟨(i 0).val / 2000, hN⟩ (1 : Fin 2) * 2 + 2
    omega

/-- After the run the output array is `joined` of the segment sums and the vertex attributes the region found. -/
theorem result (c : Dev nD) :
    (dats m 0 c).arrAt 2 cfg0.N = joined (α := Elt F .f32) (V m c main_v4) (V m c main_arg0) :=
  (dats m 0 c).arrAt_eq_of_cover 2 _ (fun t _ => written_back m c t) covered

/-- The segment sums: the edge attributes `upd` added into an array of zeros, each at the destination vertex that
    row `0` of the edge list `edges` names for it. -/
def segment_sums (edges : (⟨S2x32000000, .i32⟩ : BufTy).Contents (Elt F)) (upd : (⟨S32000000x1, .f32⟩ : BufTy).Contents (Elt F)) :
    (⟨S500000x1, .f32⟩ : BufTy).Contents (Elt F) :=
  Host.scatterAdd scatter_S500000x1_S32000000x1_S32000000x1_1_0_0_1
    (broadcastInDim S500000x1 ![] bcast_S_S500000x1 (constant (F := F) S_ .f32 0x00000000#32))
    (broadcastInDim S32000000x1 ![0] bcast_S32000000_S32000000x1_0
      (shapeCast _ (extractStridedSlice S1x32000000 ![0, 0] edges slices_S2x32000000_S1x32000000_0_0) shapeCasts_S1x32000000_S32000000))
    upd

/-- The one-column array the region finds is the segment sums of the edge list and edge attributes as launched. -/
theorem sums_found (c : Dev nD) :
    (V m c main_v4 : S500000x1.Idx → Elt F .f32)
      = segment_sums (m ((c : Thread nD τ).loc main_arg1)) (m ((c : Thread nD τ).loc main_arg2)) := by
  unfold segment_sums
  dsimp only [Gen.V, Gen.hostOps0]
  after_results
  rfl

/-- The kernel's run: it ends with the result array at `joined` of the segment sums and the vertex attributes, and
    the argument arrays as launched. -/
theorem run : θ_run defs (onTc (τ := τ) (main (F := F))) ⟨m, fun _ => 0, ρ⟩ fun r => ∀ c : Dev nD,
      r.2.mem ((c : Thread nD τ).loc main_v5)
        = joined (α := Elt F .f32) (segment_sums (m ((c : Thread nD τ).loc main_arg1)) (m ((c : Thread nD τ).loc main_arg2)))
            (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (by rw [result m c, sums_found m c, V_main_arg0 m c]), (h c).2⟩)
    (run_blocks m ρ)

end Cert.KernelIdeal.ArrayValue

end
-- ==== Proof.lean ====
/-
  The kernel computes what its reference computes: for each of 500000 vertices, the sum of the attributes of the
  edges that point at it (a scatter-add into zeros, done by the same host operations in both programs) placed in
  front of the vertex's own second attribute.

  The reference joins the two columns with one concatenation of whole arrays. The kernel joins them 2000 vertices at
  a time, in 250 grid points, each point concatenating its block of segment sums with the second column of its block
  of attributes. Both results are the function `joined` (Proof/Joined.lean) of the segment sums and the attribute
  array: for the reference by reading its concatenation at an index; for the kernel because each point writes block
  `t` of that function (Proof/KernelBlock.lean) and the blocks cover the array (Proof/KernelArray.lean). No
  arithmetic is done on the joined values, so the equality needs no law of the extended reals and holds for every
  input; the finiteness precondition is not used.

  The three frames are the generated ones (for the reference, its generated run with the result dropped), and the
  idealized kernel is the kernel's own text read over the extended reals, so `preserves` has nothing to state.
-/
import proofs.«146690_j91096256348956_2_alg».proof.Defs
import proofs.«146690_j91096256348956_2_alg».proof.Proof.Gen.Kernel
import proofs.«146690_j91096256348956_2_alg».proof.Proof.Gen.Kernel.Frame
import proofs.«146690_j91096256348956_2_alg».proof.Proof.Gen.KernelIdeal
import proofs.«146690_j91096256348956_2_alg».proof.Proof.Gen.KernelIdeal.Frame
import proofs.«146690_j91096256348956_2_alg».proof.Proof.Gen.KernelIdeal.Value
import proofs.«146690_j91096256348956_2_alg».proof.Proof.Gen.ReferenceIdeal
import proofs.«146690_j91096256348956_2_alg».proof.Proof.Gen.ReferenceIdeal.Run
import proofs.«146690_j91096256348956_2_alg».proof.Proof.Gen.Pre_finite_inputs
import proofs.«146690_j91096256348956_2_alg».proof.Proof.Joined
import proofs.«146690_j91096256348956_2_alg».proof.Proof.KernelArray
import Idealize.ShloMosaic.Adequacy
import Idealize.ShloMosaic.Init

noncomputable section

namespace Cert.Proof

open Idealize.ShloMosaic Idealize.SL.Sem

/-- The kernel as printed runs to the end, faults nowhere and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with what it says about the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the result array at `joined` of the segment
    sums and the vertex attributes: the kernel by its run block by block, the reference by its one concatenation
    read at an index. The segment sums are the same scatter-add of the same arguments on both sides. -/
theorem algebraic : Cert.algebraic_KernelIdeal_ReferenceIdeal := by
  intro m ρ m' ρ' _ hagree
  refine ⟨_, Cert.KernelIdeal.ArrayValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1]
  exact Cert.SegmentJoin.concat_slice_eq_joined _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
